-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 25
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run with its result NAMED.

  @main is three segments: the projection kernel's region, a stretch of host operations (index wrap, row gather,
  per-edge scale, scatter-add, the bias reshaped to a row), and the bias+relu kernel's region.  The buffer contents
  at the four segment boundaries are a fold from the launch memory (`Gen.W0` … `Gen.W3`).  Every weakly fair execution
  ends with every unscoped buffer at the last boundary's contents `Gen.W3`; so any property of the final memory that
  follows from "each unscoped buffer holds `W3` of it" is a post of the run (`run_any`).  Taken at the result buffer
  and at the six arguments this is `run_named`: the result is `W3` at `main_v15`, the arguments are as launched.
-/
import proofs.«155179_j52329881534832_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a memory where every unscoped buffer holds
    the last boundary's contents; hence in any `Q` that follows from that. -/
theorem run_any {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- The run with the result buffer named: it ends at the last boundary's contents of `main_v15`, and every argument
    ends as launched (no host operation and no region writes one). -/
theorem run_named : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_any m ρ (fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Named

end
-- ==== Proof.Payloads.lean ====
/-
  The two kernel bodies' stored values, read at an index over the extended reals.

  The projection body stores, at row r and column q of its [5000, 64] block, the sum over k < 256 of x[r, k] · w[k, q]:
  the change of format on the way into the product is the identity on exact values, and the zero accumulator adds nothing.
  The bias body stores max(a[r, q] + b[0, q], 0): the bias row is broadcast down the rows, the shape casts are to the
  same shape.
-/
import proofs.«155179_j52329881534832_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx
open scoped BigOperators

theorem lhs0 (i : S5000x64.Idx) (q : (dot_S5000x256_S256x64_S5000x64_1_0_0_1_n_n).contr.Idx) :
    ((dot_S5000x256_S256x64_S5000x64_1_0_0_1_n_n).lhsIdx i q 0).val = (i 0).val := by
  unfold DotDims.lhsIdx
  rw [dif_neg (show ¬(0 : Fin S5000x256.rank) ∈ (dot_S5000x256_S256x64_S5000x64_1_0_0_1_n_n).lhsBatch by decide),
    dif_pos (show (0 : Fin S5000x256.rank) ∈ (dot_S5000x256_S256x64_S5000x64_1_0_0_1_n_n).lhsNonContracting by decide)]
  rfl
theorem lhs1 (i : S5000x64.Idx) (q : (dot_S5000x256_S256x64_S5000x64_1_0_0_1_n_n).contr.Idx) :
    ((dot_S5000x256_S256x64_S5000x64_1_0_0_1_n_n).lhsIdx i q 1).val = (q ⟨0, by decide⟩).val :=
  (dot_S5000x256_S256x64_S5000x64_1_0_0_1_n_n).lhsIdx_val_of_single rfl i q
theorem rhs0 (i : S5000x64.Idx) (q : (dot_S5000x256_S256x64_S5000x64_1_0_0_1_n_n).contr.Idx) :
    ((dot_S5000x256_S256x64_S5000x64_1_0_0_1_n_n).rhsIdx i q 0).val = (q ⟨0, by decide⟩).val :=
  (dot_S5000x256_S256x64_S5000x64_1_0_0_1_n_n).rhsIdx_val_of_single rfl i q
theorem rhs1 (i : S5000x64.Idx) (q : (dot_S5000x256_S256x64_S5000x64_1_0_0_1_n_n).contr.Idx) :
    ((dot_S5000x256_S256x64_S5000x64_1_0_0_1_n_n).rhsIdx i q 1).val = (i 1).val := by
  unfold DotDims.rhsIdx
  rw [dif_neg (show ¬(1 : Fin S256x64.rank) ∈ (dot_S5000x256_S256x64_S5000x64_1_0_0_1_n_n).rhsBatch by decide),
    dif_pos (show (1 : Fin S256x64.rank) ∈ (dot_S5000x256_S256x64_S5000x64_1_0_0_1_n_n).rhsNonContracting by decide)]
  rfl

/-- Entry (r, q) of the projection block is the sum over the contraction of row r of x against column q of w. -/
theorem proj_at (x0 : Vec Ideal S5000x256 .f32) (x1 : Vec Ideal S256x64 .f32) (r : Fin 5000) (q : Fin 64) :
    k0_pay1 (F := Ideal) x0 x1 (ix2 r q) = ∑ k : Fin 256, x0 (ix2 r k) * x1 (ix2 k q) := by
  unfold k0_pay1
  simp only [matmul]
  rw [Ideal.matmul_constant_zero_apply,
    ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : (dot_S5000x256_S256x64_S5000x64_1_0_0_1_n_n).lhsIdx (ix2 r q)
      ((contrEquiv1 dot_S5000x256_S256x64_S5000x64_1_0_0_1_n_n 256 rfl rfl).symm k) = ix2 r k :=
    funext fun a => Fin.ext (by
      match a with
      | ⟨0, _⟩ => exact lhs0 _ _
      | ⟨1, _⟩ => exact (lhs1 _ _).trans hk)
  have er : (dot_S5000x256_S256x64_S5000x64_1_0_0_1_n_n).rhsIdx (ix2 r q)
      ((contrEquiv1 dot_S5000x256_S256x64_S5000x64_1_0_0_1_n_n 256 rfl rfl).symm k) = ix2 k q :=
    funext fun a => Fin.ext (by
      match a with
      | ⟨0, _⟩ => exact (rhs0 _ _).trans hk
      | ⟨1, _⟩ => exact rhs1 _ _)
  rw [el, er]
  rfl

/-- Entry (r, q) of the bias block is the aggregate there plus the bias at column q, cut off below at zero. -/
theorem biasrelu_at (b : Vec Ideal S1x64 .f32) (a : Vec Ideal S5000x64 .f32) (r : Fin 5000) (q : Fin 64) :
    k1_pay1 (F := Ideal) b a (ix2 r q) = max (a (ix2 r q) + b (ix2 (0 : Fin 1) q)) 0 := by
  unfold k1_pay1
  simp only [shapeCast_self]
  show max (a (ix2 r q) + broadcastTo S5000x64 b broadcasts_S1x64_S5000x64 (ix2 r q)) (Ideal.ofBits .f32 0x00000000#32) = _
  rw [broadcastTo_apply b broadcasts_S1x64_S5000x64 (ix2 r q) (ix2 (0 : Fin 1) q) (fun a => by
    match a with
    | ⟨0, _⟩ => show (0 : Nat) = if (1 : Nat) = 1 then 0 else _; rw [if_pos rfl]
    | ⟨1, _⟩ => show q.val = if (64 : Nat) = 1 then 0 else q.val; rw [if_neg (by decide)]), Ideal.ofBits_zero_f32]

end Cert.KernelIdeal.Pay

end
-- ==== Proof.Spec.lean ====
/-
  The two whole-array functions the kernel's regions compute, index by index over the extended reals, on literal shapes.

  `proj x w` is the dense projection: entry (p, q) is the sum over k < 256 of x[p, k] · w[k, q].
  `biasRelu a b` is the activation: entry (p, q) is max(a[p, q] + b[0, q], 0), the bias held as a [1, 64] row.
  Neither needs finiteness: both sides of the certificate compute these very sums and maxima, in the same grouping.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![100000, 256]⟩
abbrev SW : Shape := ⟨2, ![256, 64]⟩
abbrev SO : Shape := ⟨2, ![100000, 64]⟩
abbrev SB : Shape := ⟨2, ![1, 64]⟩

/-- The row of an output index, as a number below 100000. -/
abbrev rowOf (i : SO.Idx) : Fin 100000 := ⟨(i 0).val, idx2_lt0 i⟩
/-- The column of an output index, as a number below 64. -/
abbrev colOf (i : SO.Idx) : Fin 64 := ⟨(i 1).val, idx2_lt1 i⟩

/-- The dense projection x · w, entry by entry. -/
def proj (x : SX.Idx → EReal) (w : SW.Idx → EReal) : SO.Idx → EReal :=
  fun i => ∑ k : Fin 256, x (ix2 (rowOf i) k) * w (ix2 k (colOf i))

/-- relu(a + bias), the bias a [1, 64] row added to every row of a. -/
def biasRelu (a : SO.Idx → EReal) (b : SB.Idx → EReal) : SO.Idx → EReal :=
  fun i => max (a i + b (ix2 (0 : Fin 1) (colOf i))) 0

end Cert.Spec

end
-- ==== Proof.Blocks0.lean ====
/-
  What the projection kernel's region leaves in its output array, whatever the buffers hold when it is entered.

  The grid has 20 points; point t reads rows 5000·t … 5000·t + 4999 of x (all 256 columns), the whole of w, and writes
  back rows 5000·t … 5000·t + 4999 of the output (all 64 columns).  Entry (r, q) of the block written at point t is
  Σ_k x[5000·t + r, k] · w[k, q], that is, entry (5000·t + r, q) of the whole-array projection.  The twenty row
  blocks tile the output: row p lies in the block of point p / 5000.  So the output array ends at `Spec.proj` of the
  two input arrays as the region found them.
-/
import proofs.«155179_j52329881534832_1_alg».proof.Proof.Gen.KernelIdeal.Frame
import proofs.«155179_j52329881534832_1_alg».proof.Proof.Payloads
import proofs.«155179_j52329881534832_1_alg».proof.Proof.Spec
import Idealize.ShloMosaic.Lib.Pipeline.Value

set_option maxRecDepth 16384

noncomputable section

namespace Cert.KernelIdeal.Proj

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the x window and the output window sit at row block t, column block 0;
    the w window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r, column k of the x block at point t is row 5000·t + r, column k of the x array. -/
theorem xblk_apply (c : Dev nD) (t : Fin cfg0.N) (r : Fin 5000) (k : Fin 256) (p : Fin 100000)
    (hp : p.val = t.val * 5000 + r.val) :
    iblk0 V c 0 t (ix2 r k) = (V c main_arg0 : SX.Idx → EReal) (ix2 p k) := by
  obtain ⟨e0, e1, -⟩ := idx_facts t
  unfold iblk0
  rw [View.read_apply]
  show (V c main_arg0 : SX.Idx → EReal) _ = _
  refine congrArg (V c main_arg0 : SX.Idx → EReal) (funext fun a => Fin.ext ?_)
  match a with
  | ⟨0, _⟩ => show win0_0.index t (0 : Fin 2) * 5000 + 1 * r.val = p.val; rw [e0, hp]; omega
  | ⟨1, _⟩ => show win0_0.index t (1 : Fin 2) * 256 + 1 * k.val = k.val; rw [e1]; omega

/-- The w block at every point is the w array. -/
theorem wblk_apply (c : Dev nD) (t : Fin cfg0.N) (k : Fin 256) (q : Fin 64) :
    iblk0 V c 1 t (ix2 k q) = (V c main_arg4 : SW.Idx → EReal) (ix2 k q) := by
  obtain ⟨-, -, e2, e3, -⟩ := idx_facts t
  unfold iblk0
  rw [View.read_apply]
  show (V c main_arg4 : SW.Idx → EReal) _ = _
  refine congrArg (V c main_arg4 : SW.Idx → EReal) (funext fun a => Fin.ext ?_)
  match a with
  | ⟨0, _⟩ => show win0_1.index t (0 : Fin 2) * 256 + 1 * k.val = k.val; rw [e2]; omega
  | ⟨1, _⟩ => show win0_1.index t (1 : Fin 2) * 64 + 1 * q.val = q.val; rw [e3]; omega

/-- WHAT POINT t WRITES BACK is block t of the projection of the two input arrays as the region finds them. -/
theorem flushed_eq (c : Dev nD) (t : Fin cfg0.N) :
    (dat0 V c).flushed 2 t = ((cfg0.win 2).blk t).view.read (Elt Ideal) (proj (V c main_arg0) (V c main_arg4)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx_facts t
  funext j
  obtain ⟨r, q, rfl⟩ : ∃ (r : Fin 5000) (q : Fin 64), j = ix2 r q := ⟨j 0, j 1, eq_ix2 j⟩
  refine (Pay.proj_at _ _ r q).trans ?_
  rw [View.read_apply]
  have E0 : ((((View.whole main_v0).slice ((win0 2).rect t)).emb (ix2 r q)) 0).val = t.val * 5000 + r.val := by
    show win0_2.index t (0 : Fin 2) * 5000 + 1 * r.val = _; rw [e4]; omega
  have E1 : ((((View.whole main_v0).slice ((win0 2).rect t)).emb (ix2 r q)) 1).val = q.val := by
    show win0_2.index t (1 : Fin 2) * 64 + 1 * q.val = _; rw [e5]; omega
  unfold proj
  refine Finset.sum_congr rfl fun k _ => ?_
  rw [xblk_apply V c t r k (rowOf (((View.whole main_v0).slice ((win0 2).rect t)).emb (ix2 r q))) E0, wblk_apply V c t k q]
  rw [show colOf (((View.whole main_v0).slice ((win0 2).rect t)).emb (ix2 r q)) = q from Fin.ext E1]

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks tile the output: row p is in the block of point p / 5000. -/
theorem cover (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 20 := N_0
  let t : Fin cfg0.N := ⟨(i 0).val / 5000, by rw [hN]; omega⟩
  obtain ⟨-, -, -, -, e4, e5⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 64 ≤ (i 1).val ∧ (i 1).val < win0_2.index t (1 : Fin 2) * 64 + 64; rw [e5]; omega

/-- THE OUTPUT ARRAY after the region: the projection of the x and w arrays as the region found them. -/
theorem final (c : Dev nD) : (dat0 V c).arrAt 2 cfg0.N = proj (V c main_arg0) (V c main_arg4) :=
  (dat0 V c).arrAt_eq_of_cover 2 (proj (V c main_arg0) (V c main_arg4)) (fun t _ => flushed_eq V c t) cover

end Cert.KernelIdeal.Proj

end
-- ==== Proof.Blocks1.lean ====
/-
  What the bias+relu kernel's region leaves in its output array, whatever the buffers hold when it is entered.

  The grid has 20 points; point t reads rows 5000·t … 5000·t + 4999 of the aggregate (all 64 columns) and the whole
  [1, 64] bias row, and writes back the same rows of the output.  Entry (r, q) of the block written at point t is
  max(agg[5000·t + r, q] + bias[0, q], 0): entry (5000·t + r, q) of `Spec.biasRelu` of the two arrays.  The twenty
  row blocks tile the output, so the output array ends at `Spec.biasRelu` of the aggregate and the bias row as the
  region found them.
-/
import proofs.«155179_j52329881534832_1_alg».proof.Proof.Gen.KernelIdeal.Frame
import proofs.«155179_j52329881534832_1_alg».proof.Proof.Payloads
import proofs.«155179_j52329881534832_1_alg».proof.Proof.Spec
import Idealize.ShloMosaic.Lib.Pipeline.Value

set_option maxRecDepth 16384

noncomputable section

namespace Cert.KernelIdeal.Act

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate window and the output window sit at row block t, column
    block 0; the bias window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r, column q of the aggregate block at point t is row 5000·t + r, column q of the aggregate array. -/
theorem ablk_apply (c : Dev nD) (t : Fin cfg1.N) (r : Fin 5000) (q : Fin 64) (E : SO.Idx)
    (h0 : (E 0).val = t.val * 5000 + r.val) (h1 : (E 1).val = q.val) :
    iblk1 V c 0 t (ix2 r q) = (V c main_v13 : SO.Idx → EReal) E := by
  obtain ⟨e0, e1, -⟩ := idx_facts t
  unfold iblk1
  rw [View.read_apply]
  show (V c main_v13 : SO.Idx → EReal) _ = _
  refine congrArg (V c main_v13 : SO.Idx → EReal) (funext fun a => Fin.ext ?_)
  match a with
  | ⟨0, _⟩ => show win1_0.index t (0 : Fin 2) * 5000 + 1 * r.val = (E 0).val; rw [e0, h0]; omega
  | ⟨1, _⟩ => show win1_0.index t (1 : Fin 2) * 64 + 1 * q.val = (E 1).val; rw [e1, h1]; omega

/-- The bias block at every point is the bias row. -/
theorem bblk_apply (c : Dev nD) (t : Fin cfg1.N) (q : Fin 64) :
    iblk1 V c 1 t (ix2 (0 : Fin 1) q) = (V c main_v14 : SB.Idx → EReal) (ix2 (0 : Fin 1) q) := by
  obtain ⟨-, -, e2, e3, -⟩ := idx_facts t
  unfold iblk1
  rw [View.read_apply]
  show (V c main_v14 : SB.Idx → EReal) _ = _
  refine congrArg (V c main_v14 : SB.Idx → EReal) (funext fun a => Fin.ext ?_)
  match a with
  | ⟨0, _⟩ => show win1_1.index t (0 : Fin 2) * 1 + 1 * 0 = 0; rw [e2]
  | ⟨1, _⟩ => show win1_1.index t (1 : Fin 2) * 64 + 1 * q.val = q.val; rw [e3]; omega

/-- WHAT POINT t WRITES BACK is block t of relu(aggregate + bias) of the two arrays as the region finds them. -/
theorem flushed_eq (c : Dev nD) (t : Fin cfg1.N) :
    (dat1 V c).flushed 2 t = ((cfg1.win 2).blk t).view.read (Elt Ideal) (biasRelu (V c main_v13) (V c main_v14)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext j
  obtain ⟨r, q, rfl⟩ : ∃ (r : Fin 5000) (q : Fin 64), j = ix2 r q := ⟨j 0, j 1, eq_ix2 j⟩
  refine (Pay.biasrelu_at _ _ r q).trans ?_
  rw [View.read_apply]
  have E0 : ((((View.whole main_v15).slice ((win1 2).rect t)).emb (ix2 r q)) 0).val = t.val * 5000 + r.val := by
    show win1_2.index t (0 : Fin 2) * 5000 + 1 * r.val = _; rw [e4]; omega
  have E1 : ((((View.whole main_v15).slice ((win1 2).rect t)).emb (ix2 r q)) 1).val = q.val := by
    show win1_2.index t (1 : Fin 2) * 64 + 1 * q.val = _; rw [e5]; omega
  unfold biasRelu
  rw [ablk_apply V c t r q (((View.whole main_v15).slice ((win1 2).rect t)).emb (ix2 r q)) E0 E1, bblk_apply V c t q,
    show colOf (((View.whole main_v15).slice ((win1 2).rect t)).emb (ix2 r q)) = q from Fin.ext E1]
  rfl

/-- An index of the output array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v15).slice (win1_2.rect t)).set ↔ _
  rw [View.set_slice_whole, Rect.mem_set_unit]
  exact Iff.rfl

/-- The twenty row blocks tile the output: row p is in the block of point p / 5000. -/
theorem cover (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 20 := N_1
  let t : Fin cfg1.N := ⟨(i 0).val / 5000, by rw [hN]; omega⟩
  obtain ⟨-, -, -, -, e4, e5⟩ := idx_facts t
  have htv : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, htv]; omega
  | ⟨1, _⟩ => show win1_2.index t (1 : Fin 2) * 64 ≤ (i 1).val ∧ (i 1).val < win1_2.index t (1 : Fin 2) * 64 + 64; rw [e5]; omega

/-- THE OUTPUT ARRAY after the region: relu(aggregate + bias) of the two arrays as the region found them. -/
theorem final (c : Dev nD) : (dat1 V c).arrAt 2 cfg1.N = biasRelu (V c main_v13) (V c main_v14) :=
  (dat1 V c).arrAt_eq_of_cover 2 (biasRelu (V c main_v13) (V c main_v14)) (fun t _ => flushed_eq V c t) cover

end Cert.KernelIdeal.Act

end
-- ==== Proof.Chain.lean ====
/-
  The program as ONE function of its six arguments, over the extended reals.

  Both programs run the same host operations on their projection h:
    idx  = where(src < 0, src + 100000, src)                (negative indices wrapped)
    g    = gather of h's rows at idx,  [1600000, 64]
    msg  = g · edge_weight broadcast along the columns
    agg  = scatter-add of msg's rows into a zero [100000, 64] array at dst.
  `agg` names that chain as one function of h and the three edge arrays; it is never opened, since both sides apply
  it and differ only in how h is produced and in how the bias is added afterwards.  `biasRow` is the bias [64] reshaped
  to a row [1, 64], whose entry (0, q) is bias[q].  The whole program is
    whole = biasRelu (agg (proj x w) src dst edge_weight) (biasRow bias).
-/
import proofs.«155179_j52329881534832_1_alg».proof.Proof.Gen.KernelIdeal
import proofs.«155179_j52329881534832_1_alg».proof.Proof.Spec
import Idealize.ShloMosaic.Lib.Pipeline.Value
import Idealize.ShloMosaic.PureOps.Ideal

noncomputable section

namespace Cert.KernelIdeal.Whole

open Cert.KernelIdeal Cert.KernelIdeal.Gen Cert.Spec
open Idealize.ShloMosaic Idealize.ShloMosaic.ValueIdx

/-- The host chain shared by the two programs, as one function of the projection and the edge arrays: wrap the source
    indices, gather the projection's rows, scale each by its edge weight, scatter-add into zeros at the destinations. -/
def agg (h : (⟨S100000x64, .f32⟩ : BufTy).Contents (Elt Ideal)) (src dst : (⟨S1600000, .i32⟩ : BufTy).Contents (Elt Ideal))
    (ew : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 ew)))

/-- The bias vector reshaped to a [1, 64] row. -/
def biasRow (b : (⟨S64, .f32⟩ : BufTy).Contents (Elt Ideal)) : (⟨S1x64, .f32⟩ : BufTy).Contents (Elt Ideal) :=
  shapeCast S1x64 b shapeCasts_S64_S1x64

/-- Entry (0, q) of the bias row is bias[q]: the two indices have the same row-major position. -/
theorem biasRow_apply (b : (⟨S64, .f32⟩ : BufTy).Contents (Elt Ideal)) (q : Fin 64) :
    biasRow b (ix2 (0 : Fin 1) q) = b (ix1 q) := by
  unfold biasRow
  refine shapeCast_apply b shapeCasts_S64_S1x64 (ix2 (0 : Fin 1) q) (ix1 q) ?_
  rw [Shape.rowMajor_val_one, Shape.rowMajor_val_two]
  show q.val = 0 * 64 + q.val
  omega

/-- The whole program as a function of the six arguments. -/
def whole (x : (⟨S100000x256, .f32⟩ : BufTy).Contents (Elt Ideal)) (src dst : (⟨S1600000, .i32⟩ : BufTy).Contents (Elt Ideal))
    (ew : (⟨S1600000, .f32⟩ : BufTy).Contents (Elt Ideal)) (w : (⟨S256x64, .f32⟩ : BufTy).Contents (Elt Ideal))
    (b : (⟨S64, .f32⟩ : BufTy).Contents (Elt Ideal)) : (⟨S100000x64, .f32⟩ : BufTy).Contents (Elt Ideal) :=
  biasRelu (agg (proj x w) src dst ew) (biasRow b)

end Cert.KernelIdeal.Whole

end
-- ==== Proof.KernelValue.lean ====
/-
  The idealized kernel program's result array and its run, read.

  The buffer contents at the segment boundaries are a fold from the launch memory.  Reading it back from the end:
  the second region's output array is relu(aggregate + bias row) of what that region found (`Act.final`); what it
  found is the host stretch applied to what the first region left, read operation by operation (the aggregate is the shared host
  chain `Whole.agg` of the first region's output and the edge arrays, the bias row is the bias reshaped); the first
  region left the projection of the launched x and w in its output array (`Proj.final`) and touched no other argument.
  Composed: the result is `Whole.whole` of the six launched arguments.
-/
import proofs.«155179_j52329881534832_1_alg».proof.Proof.Gen.KernelIdeal.Frame
import proofs.«155179_j52329881534832_1_alg».proof.Proof.KernelRun
import proofs.«155179_j52329881534832_1_alg».proof.Proof.Blocks0
import proofs.«155179_j52329881534832_1_alg».proof.Proof.Blocks1
import proofs.«155179_j52329881534832_1_alg».proof.Proof.Spec
import proofs.«155179_j52329881534832_1_alg».proof.Proof.Chain
import Idealize.ShloMosaic.Lib.StableHlo.Run
import Idealize.ShloMosaic.PureOps.Ideal

set_option maxRecDepth 16384

noncomputable section

namespace Cert.KernelIdeal.Whole

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregate the second region finds: the host chain of the first region's output and the edge arrays. -/
theorem entry_agg (c : Dev nD) : V2 m ρ c main_v13
    = agg (W1 m ρ c (Proc.devRef .tc main_v0)) (W1 m ρ c (Proc.devRef .tc main_arg1))
        (W1 m ρ c (Proc.devRef .tc main_arg2)) (W1 m ρ c (Proc.devRef .tc main_arg3)) := by
  show StableHlo.after hostOps1 (W1 m ρ c) (Proc.devRef .tc main_v13) = _
  after_results
  rfl

/-- The bias row the second region finds. -/
theorem entry_bias (c : Dev nD) : V2 m ρ c main_v14 = biasRow (W1 m ρ c (Proc.devRef .tc main_arg5)) := by
  show StableHlo.after hostOps1 (W1 m ρ c) (Proc.devRef .tc main_v14) = _
  after_results
  rfl

/-- After the first region its output array holds the projection of the launched x and w. -/
theorem exit_proj (c : Dev nD) : W1 m ρ c (Proc.devRef .tc main_v0)
    = proj (m ((c : Thread nD τ).loc main_arg0)) (m ((c : Thread nD τ).loc main_arg4)) :=
  (W1_arr m ρ c 2).trans (Proj.final (V0 m ρ) c)

/-- The first region touches neither the edge arrays nor the bias. -/
theorem exit_arg1 (c : Dev nD) : W1 m ρ c (Proc.devRef .tc main_arg1) = m ((c : Thread nD τ).loc main_arg1) := W1_of_ne m ρ c main_arg1 (by decide)
theorem exit_arg2 (c : Dev nD) : W1 m ρ c (Proc.devRef .tc main_arg2) = m ((c : Thread nD τ).loc main_arg2) := W1_of_ne m ρ c main_arg2 (by decide)
theorem exit_arg3 (c : Dev nD) : W1 m ρ c (Proc.devRef .tc main_arg3) = m ((c : Thread nD τ).loc main_arg3) := W1_of_ne m ρ c main_arg3 (by decide)
theorem exit_arg5 (c : Dev nD) : W1 m ρ c (Proc.devRef .tc main_arg5) = m ((c : Thread nD τ).loc main_arg5) := W1_of_ne m ρ c main_arg5 (by decide)

/-- THE RESULT ARRAY at the last boundary is `whole` of the launched arguments. -/
theorem result (c : Dev nD) : W3 m ρ c (Proc.devRef .tc main_v15)
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 2).trans ?_
  rw [Act.final (V2 m ρ) c, entry_agg, entry_bias, exit_proj, exit_arg1, exit_arg2, exit_arg3, exit_arg5]
  rfl

/-- THE RUN, READ: every weakly fair execution terminates with the result at `whole` of the arguments, the arguments
    unchanged. -/
theorem run : θ_run defs (onTc (τ := τ) (main (F := Ideal))) ⟨m, fun _ => 0, ρ⟩ (fun r => ∀ c : Dev nD,
      r.2.mem ((c.tc : Thread nD τ).loc main_v15)
        = whole (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Named.run_named m ρ)

end Cert.KernelIdeal.Whole

end
-- ==== Proof.RefValue.lean ====
/-
  The idealized reference's result is the same function of the six arguments.

  The reference computes h = x · w by one dot_general, whose entry (p, q) over the extended reals is the plain sum over
  k of x[p, k] · w[k, q]: `Spec.proj`.  It then applies the shared host chain (`Whole.agg`: the same operations on the
  same shapes, so the two terms are one), adds the bias broadcast first to a row [1, 64] and then down the 100000
  rows — entry (p, q) of that is bias[q], which is entry (0, q) of the reshaped bias row —, and takes the maximum with
  a zero array.  Index by index this is max(agg[p, q] + bias[q], 0): `Whole.whole`.
-/
import proofs.«155179_j52329881534832_1_alg».proof.Proof.Gen.ReferenceIdeal.Read
import proofs.«155179_j52329881534832_1_alg».proof.Proof.Chain
import proofs.«155179_j52329881534832_1_alg».proof.Proof.Spec
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.ValueIdx
open scoped BigOperators

/-- The reference's dot_general is the projection, entry by entry. -/
theorem proj_eq (x0 : (⟨S100000x256, .f32⟩ : BufTy).Contents (Elt Ideal)) (x4 : (⟨S256x64, .f32⟩ : BufTy).Contents (Elt Ideal)) :
    val_main_v0 (F := Ideal) x0 x4 = proj x0 x4 := by
  funext i
  rw [val_main_v0_apply]
  unfold proj
  refine Finset.sum_congr rfl fun k _ => ?_
  have el : lidx_main_v0 i k = ix2 (rowOf i) k := funext fun a => by
    match a with
    | ⟨0, _⟩ => rfl
    | ⟨1, _⟩ => rfl
  have er : ridx_main_v0 i k = ix2 k (colOf i) := funext fun a => by
    match a with
    | ⟨0, _⟩ => rfl
    | ⟨1, _⟩ => rfl
  rw [el, er]

/-- The reference's gather / scale / scatter-add stage is the shared host chain of its projection. -/
theorem agg_eq (x0 : (⟨S100000x256, .f32⟩ : BufTy).Contents (Elt Ideal)) (x1 x2 : (⟨S1600000, .i32⟩ : BufTy).Contents (Elt Ideal))
    (x3 : (⟨S1600000, .f32⟩ : BufTy).Contents (Elt Ideal)) (x4 : (⟨S256x64, .f32⟩ : BufTy).Contents (Elt Ideal)) :
    val_main_v13 (F := Ideal) x0 x1 x2 x3 x4 = Cert.KernelIdeal.Whole.agg (val_main_v0 (F := Ideal) x0 x4) x1 x2 x3 := rfl

/-- THE REFERENCE'S RESULT is `whole` of the arguments. -/
theorem result_eq (x0 : (⟨S100000x256, .f32⟩ : BufTy).Contents (Elt Ideal)) (x1 x2 : (⟨S1600000, .i32⟩ : BufTy).Contents (Elt Ideal))
    (x3 : (⟨S1600000, .f32⟩ : BufTy).Contents (Elt Ideal)) (x4 : (⟨S256x64, .f32⟩ : BufTy).Contents (Elt Ideal))
    (x5 : (⟨S64, .f32⟩ : BufTy).Contents (Elt Ideal)) :
    val_main_v17 (F := Ideal) x0 x1 x2 x3 x4 x5 = Cert.KernelIdeal.Whole.whole x0 x1 x2 x3 x4 x5 := by
  funext i
  rw [val_main_v17_apply, val_main_v16_apply, val_main_call0_v0_apply, val_main_call0_cst_apply, val_main_v15_apply,
    val_main_v14_apply, agg_eq, proj_eq]
  unfold Cert.KernelIdeal.Whole.whole biasRelu
  rw [Cert.KernelIdeal.Whole.biasRow_apply]
  have eb : idx_main_v14 (idx_main_v15 i) = ix1 (colOf i) := funext fun a => by
    match a with
    | ⟨0, _⟩ => rfl
  rw [eb]
  simp only [Ideal.maximumf_def, Ideal.addf_def, Ideal.ofBits_def, Ideal.ofBits_zero_f32]

end Cert.ReferenceIdeal.RefValue

end
-- ==== Proof.lean ====
/-
  A graph-convolution layer: out = relu(segment_sum(h[src] · edge_weight, dst) + bias) with h = x · weight, over
  100000 nodes, 1600000 edges, 256 input and 64 output features.

  The kernel program computes h in a Pallas kernel tiled over twenty blocks of 5000 rows (the operands narrowed to
  bf16 on the way into the product, accumulated in f32 from zero), leaves the gather / scale / scatter-add to the
  host, and adds the bias and takes the maximum with zero in a second Pallas kernel over the same twenty row blocks.
  The reference computes h by one dot_general and the rest on the host.

  Over the extended reals a change of float format is the identity and a product accumulated from zero is the plain
  sum of products, so each row block of the kernel's h is that block of the reference's h, and the blocks tile the
  array (`Proj.final`, `RefValue.proj_eq`).  The host chain in the middle is the same operations on both sides
  (`Whole.agg`).  The second kernel's entry (p, q) is max(agg[p, q] + bias[q], 0), which is the reference's
  max(agg + broadcast bias, 0) at (p, q) (`Act.final`, `RefValue.result_eq`).  No law used needs a finite operand:
  both sides are the same sums, products and maxima in the same grouping, so the precondition is never opened.

  The three frames: the two kernel programs' are generated whole (two regions around a host stretch); the reference
  has no kernel, and its frame is its run with the result dropped.  The idealization rewrote nothing, so `preserves`
  is trivial.
-/
import proofs.«155179_j52329881534832_1_alg».proof.Defs
import proofs.«155179_j52329881534832_1_alg».proof.Proof.Gen.Kernel
import proofs.«155179_j52329881534832_1_alg».proof.Proof.Gen.Kernel.Skeleton
import proofs.«155179_j52329881534832_1_alg».proof.Proof.Gen.Kernel.Launch
import proofs.«155179_j52329881534832_1_alg».proof.Proof.Gen.Kernel.Points
import proofs.«155179_j52329881534832_1_alg».proof.Proof.Gen.Kernel.Frame
import proofs.«155179_j52329881534832_1_alg».proof.Proof.Gen.KernelIdeal
import proofs.«155179_j52329881534832_1_alg».proof.Proof.Gen.KernelIdeal.Skeleton
import proofs.«155179_j52329881534832_1_alg».proof.Proof.Gen.KernelIdeal.Launch
import proofs.«155179_j52329881534832_1_alg».proof.Proof.Gen.KernelIdeal.Points
import proofs.«155179_j52329881534832_1_alg».proof.Proof.Gen.KernelIdeal.Frame
import proofs.«155179_j52329881534832_1_alg».proof.Proof.Gen.ReferenceIdeal
import proofs.«155179_j52329881534832_1_alg».proof.Proof.Gen.ReferenceIdeal.Run
import proofs.«155179_j52329881534832_1_alg».proof.Proof.Gen.ReferenceIdeal.Read
import proofs.«155179_j52329881534832_1_alg».proof.Proof.Gen.Pre_finite_inputs
import proofs.«155179_j52329881534832_1_alg».proof.Proof.KernelValue
import proofs.«155179_j52329881534832_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at `Whole.whole` of the launched arguments: the kernel program by
    its run read back through its two regions and the host stretch between them, the reference by its run's term read
    index by index; the arguments agree, so the two results are one array. -/
theorem algebraic : Cert.algebraic_KernelIdeal_ReferenceIdeal := by
  intro m ρ m' ρ' _ hagree
  refine ⟨fun c => Cert.KernelIdeal.Whole.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
